-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x131072x512 : Shape := ⟨3, ![2, 131072, 512]⟩
abbrev S2x256 : Shape := ⟨2, ![2, 256]⟩
abbrev S512x512 : Shape := ⟨2, ![512, 512]⟩
abbrev S512x256 : Shape := ⟨2, ![512, 256]⟩
abbrev S512 : Shape := ⟨1, ![512]⟩
abbrev S_ : Shape := ⟨0, ![]⟩

class Facts : Prop where
  bcast_S_S2x131072x512 : S_.BroadcastsInDim S2x131072x512 (![] : Fin 0 → Fin S2x131072x512.rank)
  reducesTo_S2x131072x512_S_d0_1_2 : S2x131072x512.ReducesTo [0, 1, 2] S_
  h_S_ : 0 < S_.numel
  bcast_S_S2x256 : S_.BroadcastsInDim S2x256 (![] : Fin 0 → Fin S2x256.rank)
  reducesTo_S2x256_S_d0_1 : S2x256.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x256 .f32) (main_arg6 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S2x131072x512 .f32) (main_arg1 : FVec F S2x256 .f32) (main_arg2 : FVec F S512x512 .f32) (main_arg3 : FVec F S512x256 .f32) (main_arg4 : FVec F S512 .f32) (main_arg5 : FVec F S512x256 .f32) (main_arg6 : FVec F S512 .f32) : IVec S_ 1 :=
  let main_v0 : FVec F S2x131072x512 .f32 := Host.absf main_arg0
  let main_cst : FVec F S_ .f32 := constant S_ .f32 0x7F800000#32
  let main_v1 : FVec F S2x131072x512 .f32 := broadcastInDim S2x131072x512 ![] bcast_S_S2x131072x512 main_cst
  let main_v2 : IVec S2x131072x512 1 := cmpf .olt main_v0 main_v1
  let main_c : IVec S_ 1 := constantI S_ 1 1#1
  let main_v3 : IVec S_ 1 := (fun x v => Host.reduce IntOp.andi x v reducesTo_S2x131072x512_S_d0_1_2 h_S_) main_v2 main_c
  let main_v4 : FVec F S2x256 .f32 := Host.absf main_arg1
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S2x131072x512 : Shape := ⟨3, ![2, 131072, 512]⟩
abbrev S2x256 : Shape := ⟨2, ![2, 256]⟩
abbrev S512x512 : Shape := ⟨2, ![512, 512]⟩
abbrev S512x256 : Shape := ⟨2, ![512, 256]⟩
abbrev S512 : Shape := ⟨1, ![512]⟩
abbrev S256x512 : Shape := ⟨2, ![256, 512]⟩
abbrev S2x512 : Shape := ⟨2, ![2, 512]⟩
abbrev S1x512 : Shape := ⟨2, ![1, 512]⟩
abbrev S2x1x512 : Shape := ⟨3, ![2, 1, 512]⟩
abbrev S1x2048x512 : Shape := ⟨3, ![1, 2048, 512]⟩
abbrev S1x1x512 : Shape := ⟨3, ![1, 1, 512]⟩
abbrev S2048x512 : Shape := ⟨2, ![2048, 512]⟩

abbrev nBuf : Space → Nat
  | .hbm => 22
  | .vmem => 9
  | .smem => 0
  | _ => 0

abbrev bufTy : (tb : Table) → Fin (tcTables nBuf tb) → BufTy
  | .hbm, ⟨0, _⟩ => ⟨S2x131072x512, .f32⟩
  | .hbm, ⟨1, _⟩ => ⟨S2x256, .f32⟩
  | .hbm, ⟨2, _⟩ => ⟨S512x512, .f32⟩
  | .hbm, ⟨3, _⟩ => ⟨S512x256, .f32⟩
  | .hbm, ⟨4, _⟩ => ⟨S512, .f32⟩
  | .hbm, ⟨5, _⟩ => ⟨S512x256, .f32⟩
  | .hbm, ⟨6, _⟩ => ⟨S512, .f32⟩
  | .hbm, ⟨7, _⟩ => ⟨S256x512, .f32⟩
  | .hbm, ⟨8, _⟩ => ⟨S2x512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S256x512, .f32⟩
  | .hbm, ⟨13, _⟩ => ⟨S2x512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S2x1x512, .f32⟩
  | .hbm, ⟨18, _⟩ => ⟨S2x1x512, .f32⟩
  | .hbm, ⟨19, _⟩ => ⟨S512x512, .f32⟩
  | .hbm, ⟨20, _⟩ => ⟨S512x512, .bf16⟩
  | .hbm, ⟨21, _⟩ => ⟨S2x131072x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x512, .f32⟩
  | .local _ .vmem, ⟨3, _⟩ => ⟨S1x1x512, .f32⟩
  | .local _ .vmem, ⟨4, _⟩ => ⟨S512x512, .bf16⟩
  | .local _ .vmem, ⟨5, _⟩ => ⟨S1x1x512, .f32⟩
  | .local _ .vmem, ⟨6, _⟩ => ⟨S1x1x512, .f32⟩
  | .local _ .vmem, ⟨7, _⟩ => ⟨S1x2048x512, .f32⟩
  | .local _ .vmem, ⟨8, _⟩ => ⟨S1x2048x512, .f32⟩
  | _, _ => ⟨S2x131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x256_S256x512_1_0 : S512x256.Transposes [1, 0] S256x512
  bcast_S512_S1x512_1 : S512.BroadcastsInDim S1x512 (![1] : Fin 1 → Fin S1x512.rank)
  bcast_S1x512_S2x512_0_1 : S1x512.BroadcastsInDim S2x512 (![0, 1] : Fin 2 → Fin S2x512.rank)
  shapeCasts_S2x512_S2x1x512 : S2x512.ShapeCasts S2x1x512
  transposes_S512x512_S512x512_1_0 : S512x512.Transposes [1, 0] S512x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2048x512_S1x2048x512 : S2048x512.ShapeCasts S1x2048x512
  dot_S2x256_S256x512_S2x512_1_0_0_1_n_n_wf : DotDims.WF S2x256 S256x512 S2x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S2x131072x512.size a
  hwx0_0 : ∀ i : grid0.Coords, EltTy.bits .f32 = 32 ∨ (Rect.block (s := S2x131072x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S2x1x512.size a
  hwx0_1 : ∀ i : grid0.Coords, EltTy.bits .f32 = 32 ∨ (Rect.block (s := S2x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S2x131072x512.size a
  hwx0_4 : ∀ i : grid0.Coords, EltTy.bits .f32 = 32 ∨ (Rect.block (s := S2x131072x512) S1x2048x512.size (cc0_transform_4 i) (hinb0_4 i)).WholeWords (EltTy.packing .f32)

variable [Facts₀]

def dot_S2x256_S256x512_S2x512_1_0_0_1_n_n : DotDims S2x256 S256x512 S2x512 where
  lhsContracting := [1]
  rhsContracting := [0]
  lhsNonContracting := [0]
  rhsNonContracting := [1]
  lhsBatch := []
  rhsBatch := []
  wf := dot_S2x256_S256x512_S2x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x131072x512 : Shape := ⟨3, ![2, 131072, 512]⟩
abbrev S2x256 : Shape := ⟨2, ![2, 256]⟩
abbrev S512x512 : Shape := ⟨2, ![512, 512]⟩
abbrev S512x256 : Shape := ⟨2, ![512, 256]⟩
abbrev S512 : Shape := ⟨1, ![512]⟩
abbrev S256x512 : Shape := ⟨2, ![256, 512]⟩
abbrev S2x512 : Shape := ⟨2, ![2, 512]⟩
abbrev S1x512 : Shape := ⟨2, ![1, 512]⟩
abbrev S2x1x512 : Shape := ⟨3, ![2, 1, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x131072x512, .f32⟩
  | .hbm, ⟨1, _⟩ => ⟨S2x256, .f32⟩
  | .hbm, ⟨2, _⟩ => ⟨S512x512, .f32⟩
  | .hbm, ⟨3, _⟩ => ⟨S512x256, .f32⟩
  | .hbm, ⟨4, _⟩ => ⟨S512, .f32⟩
  | .hbm, ⟨5, _⟩ => ⟨S512x256, .f32⟩
  | .hbm, ⟨6, _⟩ => ⟨S512, .f32⟩
  | .hbm, ⟨7, _⟩ => ⟨S256x512, .f32⟩
  | .hbm, ⟨8, _⟩ => ⟨S2x512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S256x512, .f32⟩
  | .hbm, ⟨13, _⟩ => ⟨S2x512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S2x1x512, .f32⟩
  | .hbm, ⟨18, _⟩ => ⟨S2x131072x512, .f32⟩
  | .hbm, ⟨19, _⟩ => ⟨S2x131072x512, .f32⟩
  | .hbm, ⟨20, _⟩ => ⟨S2x131072x512, .f32⟩
  | .hbm, ⟨21, _⟩ => ⟨S2x1x512, .f32⟩
  | .hbm, ⟨22, _⟩ => ⟨S2x131072x512, .f32⟩
  | .hbm, ⟨23, _⟩ => ⟨S2x131072x512, .f32⟩
  | _, _ => ⟨S2x131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S2x512_0_1 : S1x512.BroadcastsInDim S2x512 (![0, 1] : Fin 2 → Fin S2x512.rank)
  bcast_S2x512_S2x1x512_0_2 : S2x512.BroadcastsInDim S2x1x512 (![0, 2] : Fin 2 → Fin S2x1x512.rank)
  bcast_S2x1x512_S2x131072x512_0_1_2 : S2x1x512.BroadcastsInDim S2x131072x512 (![0, 1, 2] : Fin 3 → Fin S2x131072x512.rank)
  dot_S2x256_S256x512_S2x512_1_0_0_1_n_n_wf : DotDims.WF S2x256 S256x512 S2x512 [1] [0] [0] [1] [] []
  dot_S2x131072x512_S512x512_S2x131072x512_2_1_01_0_n_n_wf : DotDims.WF S2x131072x512 S512x512 S2x131072x512 [2] [1] [0, 1] [0] [] []

variable [Facts₀]

def dot_S2x256_S256x512_S2x512_1_0_0_1_n_n : DotDims S2x256 S256x512 S2x512 where
  lhsContracting := [1]
  rhsContracting := [0]
  lhsNonContracting := [0]
  rhsNonContracting := [1]
  lhsBatch := []
  rhsBatch := []
  wf := dot_S2x256_S256x512_S2x512_1_0_0_1_n_n_wf
def dot_S2x131072x512_S512x512_S2x131072x512_2_1_01_0_n_n : DotDims S2x131072x512 S512x512 S2x131072x512 where
  lhsContracting := [2]
  rhsContracting := [1]
  lhsNonContracting := [0, 1]
  rhsNonContracting := [0]
  lhsBatch := []
  rhsBatch := []
  wf := dot_S2x131072x512_S512x512_S2x131072x512_2_1_01_0_n_n_wf

class Facts : Prop extends Facts₀ where

variable [Facts]
-- ==== Proof.Spec.lean ====
/-
  The modulated linear layer as one function of the seven argument arrays, index by index, on the extended reals.

  With `z` the style vectors, `wa, ba` and `wb, bb` the two style projections, `W` the weight and `x` the input,
    alpha[b, i]  = (Σ_k z[b, k] · wa[i, k]) + ba[i]
    beta[b, o]   = (Σ_k z[b, k] · wb[o, k]) + bb[o]
    out[b, n, o] = (Σ_i (x[b, n, i] · alpha[b, i]) · W[o, i]) + beta[b, o].
  Both programs compute exactly these sums, in this grouping: no law of the extended reals beyond reading each
  operation at an index is needed, so nothing here depends on the inputs being finite.
-/
import Idealize.ShloMosaic.PureOps.Ideal
import Idealize.ShloMosaic.Lib.ValueIdx

noncomputable section

open scoped BigOperators

namespace Cert.ModLinear

open Idealize.ShloMosaic Idealize.ShloMosaic.ValueIdx

/-- One style projection at batch `b` and channel `i`: the row `z[b, ·]` against the row `w[i, ·]`, plus the bias. -/
def styleAt (z : (⟨2, ![2, 256]⟩ : Shape).Idx → EReal) (w : (⟨2, ![512, 256]⟩ : Shape).Idx → EReal)
    (bias : (⟨1, ![512]⟩ : Shape).Idx → EReal) (b : Fin 2) (i : Fin 512) : EReal :=
  (∑ k : Fin 256, z (ix2 b k) * w (ix2 i k)) + bias (ix1 i)

/-- The layer at `(b, n, o)` from a modulation `al` and an output bias `bt`: the row `x[b, n, ·]` scaled channel by
    channel by `al[b, ·]`, against the row `W[o, ·]`, plus `bt[b, o]`. -/
def modAt (x : (⟨3, ![2, 131072, 512]⟩ : Shape).Idx → EReal) (W : (⟨2, ![512, 512]⟩ : Shape).Idx → EReal)
    (al bt : Fin 2 → Fin 512 → EReal) (b : Fin 2) (n : Fin 131072) (o : Fin 512) : EReal :=
  (∑ i : Fin 512, (x (ix3 b n i) * al b i) * W (ix2 o i)) + bt b o

/-- The whole result array as a function of the seven arguments. -/
def result (x : (⟨3, ![2, 131072, 512]⟩ : Shape).Idx → EReal) (z : (⟨2, ![2, 256]⟩ : Shape).Idx → EReal)
    (W : (⟨2, ![512, 512]⟩ : Shape).Idx → EReal) (wa : (⟨2, ![512, 256]⟩ : Shape).Idx → EReal)
    (ba : (⟨1, ![512]⟩ : Shape).Idx → EReal) (wb : (⟨2, ![512, 256]⟩ : Shape).Idx → EReal)
    (bb : (⟨1, ![512]⟩ : Shape).Idx → EReal) : (⟨3, ![2, 131072, 512]⟩ : Shape).Idx → EReal :=
  fun j => modAt x W (styleAt z wa ba) (styleAt z wb bb) (j 0) (j 1) (j 2)

theorem result_apply (x : (⟨3, ![2, 131072, 512]⟩ : Shape).Idx → EReal) (z : (⟨2, ![2, 256]⟩ : Shape).Idx → EReal)
    (W : (⟨2, ![512, 512]⟩ : Shape).Idx → EReal) (wa : (⟨2, ![512, 256]⟩ : Shape).Idx → EReal)
    (ba : (⟨1, ![512]⟩ : Shape).Idx → EReal) (wb : (⟨2, ![512, 256]⟩ : Shape).Idx → EReal)
    (bb : (⟨1, ![512]⟩ : Shape).Idx → EReal) (b : Fin 2) (n : Fin 131072) (o : Fin 512) :
    result x z W wa ba wb bb (ix3 b n o) = modAt x W (styleAt z wa ba) (styleAt z wb bb) b n o := rfl

/-! ## Indices named by their coordinates -/

/-- A rank-1 index with the coordinate `a` is `ix1 a`. -/
theorem ix1_of {n : Nat} (f : (⟨1, ![n]⟩ : Shape).Idx) (a : Fin n) (h0 : (f 0).val = a.val) : f = ix1 a :=
  funext fun d => Fin.ext (by match d with | ⟨0, _⟩ => exact h0)

/-- A rank-2 index with the coordinates `a, b` is `ix2 a b`. -/
theorem ix2_of {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-3 index with the coordinates `a, b, c` is `ix3 a b c`. -/
theorem ix3_of {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun d => Fin.ext (by match d with | ⟨0, _⟩ => exact h0 | ⟨1, _⟩ => exact h1 | ⟨2, _⟩ => exact h2)

end Cert.ModLinear

end
-- ==== Proof.RefValue.lean ====
/-
  The reference program, read at an index, is the modulated linear layer of `Spec`.

  Each host operation is read at an index through the generated stage lemmas; what is written here are the index
  equations (a transposed, broadcast or contracted index named by its coordinates) and the four steps
  alpha, beta, x · alpha, and the final sum plus beta.
-/
import proofs.«127087_j41377714930225_2_alg».proof.Proof.Gen.ReferenceIdeal.Read
import proofs.«127087_j41377714930225_2_alg».proof.Proof.Spec

noncomputable section

open scoped BigOperators

namespace Cert.ModLinear.Ref

open Cert.ReferenceIdeal Cert.ReferenceIdeal.Read Idealize.ShloMosaic Idealize.ShloMosaic.ValueIdx Cert.ModLinear

/-- A style projection as the reference computes it (transpose, contraction over the 256 style features, the bias
    broadcast over the batch) is `styleAt`: stated once for the first projection's stages. -/
theorem alpha_apply (x1 : S2x256.Idx → EReal) (x3 : S512x256.Idx → EReal) (x4 : S512.Idx → EReal) (b : Fin 2) (i : Fin 512) :
    val_main_v4 (F := Ideal) x1 x3 x4 (ix2 b i) = styleAt x1 x3 x4 b i := by
  rw [val_main_v4_apply, val_main_v1_apply, val_main_v3_apply, val_main_v2_apply]
  unfold styleAt
  refine congrArg₂ (· + ·) (Finset.sum_congr rfl fun k _ => ?_) ?_
  · rw [val_main_v0_apply]
    rw [show lidx_main_v1 (ix2 b i) k = ix2 b k from ix2_of _ _ _ rfl rfl,
      show idx_main_v0 (ridx_main_v1 (ix2 b i) k) = ix2 i k from ix2_of _ _ _ rfl rfl]
  · rw [show idx_main_v2 (idx_main_v3 (ix2 b i)) = ix1 i from ix1_of _ _ rfl]

/-- The second projection's stages, the same way. -/
theorem beta_apply (x1 : S2x256.Idx → EReal) (x5 : S512x256.Idx → EReal) (x6 : S512.Idx → EReal) (b : Fin 2) (o : Fin 512) :
    val_main_v9 (F := Ideal) x1 x5 x6 (ix2 b o) = styleAt x1 x5 x6 b o := by
  rw [val_main_v9_apply, val_main_v6_apply, val_main_v8_apply, val_main_v7_apply]
  unfold styleAt
  refine congrArg₂ (· + ·) (Finset.sum_congr rfl fun k _ => ?_) ?_
  · rw [val_main_v5_apply]
    rw [show lidx_main_v6 (ix2 b o) k = ix2 b k from ix2_of _ _ _ rfl rfl,
      show idx_main_v5 (ridx_main_v6 (ix2 b o) k) = ix2 o k from ix2_of _ _ _ rfl rfl]
  · rw [show idx_main_v7 (idx_main_v8 (ix2 b o)) = ix1 o from ix1_of _ _ rfl]

/-- The modulated input: `x[b, n, i]` times alpha broadcast along the rows. -/
theorem modulated_apply (x0 : S2x131072x512.Idx → EReal) (x1 : S2x256.Idx → EReal) (x3 : S512x256.Idx → EReal) (x4 : S512.Idx → EReal)
    (b : Fin 2) (n : Fin 131072) (i : Fin 512) :
    val_main_v12 (F := Ideal) x0 x1 x3 x4 (ix3 b n i) = x0 (ix3 b n i) * styleAt x1 x3 x4 b i := by
  rw [val_main_v12_apply, val_main_v11_apply, val_main_v10_apply]
  rw [show idx_main_v10 (idx_main_v11 (ix3 b n i)) = ix2 b i from ix2_of _ _ _ rfl rfl, alpha_apply]
  rfl

/-- Beta broadcast along the rows. -/
theorem bias_apply (x1 : S2x256.Idx → EReal) (x5 : S512x256.Idx → EReal) (x6 : S512.Idx → EReal)
    (b : Fin 2) (n : Fin 131072) (o : Fin 512) :
    val_main_v15 (F := Ideal) x1 x5 x6 (ix3 b n o) = styleAt x1 x5 x6 b o := by
  rw [val_main_v15_apply, val_main_v14_apply]
  rw [show idx_main_v14 (idx_main_v15 (ix3 b n o)) = ix2 b o from ix2_of _ _ _ rfl rfl, beta_apply]

/-- THE REFERENCE IS THE SPECIFICATION: its last stage is `result` of the seven arguments. -/
theorem val_eq_result (x0 : S2x131072x512.Idx → EReal) (x1 : S2x256.Idx → EReal) (x2 : S512x512.Idx → EReal)
    (x3 : S512x256.Idx → EReal) (x4 : S512.Idx → EReal) (x5 : S512x256.Idx → EReal) (x6 : S512.Idx → EReal) :
    val_main_v16 (F := Ideal) x0 x1 x2 x3 x4 x5 x6 = result x0 x1 x2 x3 x4 x5 x6 := by
  funext j
  obtain ⟨b, n, o, rfl⟩ : ∃ (b : Fin 2) (n : Fin 131072) (o : Fin 512), j = ix3 b n o := ⟨j 0, j 1, j 2, eq_ix3 j⟩
  rw [result_apply, val_main_v16_apply, val_main_v13_apply, bias_apply]
  unfold modAt
  refine congrArg₂ (· + ·) (Finset.sum_congr rfl fun i _ => ?_) rfl
  rw [show lidx_main_v13 (ix3 b n o) i = ix3 b n i from ix3_of _ _ _ _ rfl rfl rfl,
    show ridx_main_v13 (ix3 b n o) i = ix2 o i from ix2_of _ _ _ rfl rfl, modulated_apply]

end Cert.ModLinear.Ref

end
-- ==== Proof.Body.lean ====
/-
  The kernel body's stored value, read at one element of the output block.

  For a block `xb` of 2048 rows of `x`, the batch's row `al` of alpha, the batch's row `bt` of beta and the
  transposed weight `wT`, the body stores at row `r` and column `o`
      (Σ_i (xb[r, i] · al[i]) · wT[i, o]) + bt[o]:
  the change of format before the matrix product is the identity on the extended reals, and a matrix product into
  the zero accumulator is the plain sum over the contracted axis.
-/
import proofs.«127087_j41377714930225_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ModLinear.Body

open Cert.KernelIdeal Cert.KernelIdeal.Gen Idealize.ShloMosaic Idealize.ShloMosaic.ValueIdx

/-! ## The matrix product's operand indices -/

theorem lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The block's matrix product into the zero accumulator, at row `r` and column `o`: the sum over the 512 input
    channels of the left operand's row `r` against the right operand's column `o`. -/
theorem matmul_apply (L : FVec Ideal S2048x512 .bf16) (R : FVec Ideal S512x512 .bf16) (r : Fin 2048) (o : Fin 512) :
    matmul dot_S2048x512_S512x512_S2048x512_1_0_0_1_n_n none L R (constant (F := Ideal) S2048x512 .f32 0x00000000#32) (ix2 r o)
      = ∑ i : Fin 512, L (ix2 r i) * R (ix2 i o) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 r o) ((ValueIdx.contrEquiv1 dot_S2048x512_S512x512_S2048x512_1_0_0_1_n_n 512 rfl rfl).symm k) = ix2 r k := funext fun a => Fin.ext (by
    match a with
    | ⟨0, _⟩ => exact lhs_0 _ _
    | ⟨1, _⟩ => exact (lhs_1 _ _).trans hk)
  have er : dot_S2048x512_S512x512_S2048x512_1_0_0_1_n_n.rhsIdx (ix2 r o) ((ValueIdx.contrEquiv1 dot_S2048x512_S512x512_S2048x512_1_0_0_1_n_n 512 rfl rfl).symm k) = ix2 k o := funext fun a => Fin.ext (by
    match a with
    | ⟨0, _⟩ => exact (rhs_0 _ _).trans hk
    | ⟨1, _⟩ => exact rhs_1 _ _)
  rw [el, er]

/-! ## The layout steps around it -/

/-- A `[1, 1, a]` array cast to `[a]` reads, at `i`, the operand at `(0, 0, i)`. -/
theorem shapeCast_11a_a_apply {α : Type} {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A row vector taken out of a `[1, 1, 512]` block and broadcast over the 2048 rows reads, at `(r, i)`, the
    block at `(0, 0, i)`. -/
theorem row_apply (v : Vec Ideal S1x1x512 .f32) (r : Fin 2048) (i : Fin 512) :
    broadcastTo S2048x512 (shapeCast S1x512 (shapeCast S512 v shapeCasts_S1x1x512_S512) shapeCasts_S512_S1x512) broadcasts_S1x512_S2048x512 (ix2 r i)
      = v (ix3 (0 : Fin 1) (0 : Fin 1) i) := by
  rw [broadcastTo_1b_ab_apply, shapeCast_a_1a_apply, shapeCast_11a_a_apply]

/-! ## The stored value -/

/-- THE BODY'S STORE at `(u, r, o)` of the output block. -/
theorem pay_apply (xb : Vec Ideal S1x2048x512 .f32) (al : Vec Ideal S1x1x512 .f32) (bt : Vec Ideal S1x1x512 .f32)
    (wT : Vec Ideal S512x512 .bf16) (u : Fin 1) (r : Fin 2048) (o : Fin 512) :
    k0_pay1 (F := Ideal) xb al bt wT (ix3 u r o)
      = (∑ i : Fin 512, (xb (ix3 (0 : Fin 1) r i) * al (ix3 (0 : Fin 1) (0 : Fin 1) i)) * wT (ix2 i o)) + bt (ix3 (0 : Fin 1) (0 : Fin 1) o) := by
  unfold k0_pay1
  rw [shapeCast_ab_1ab_apply, addf_apply, row_apply, matmul_apply]
  refine congrArg₂ (· + ·) (Finset.sum_congr rfl fun i _ => ?_) rfl
  rw [truncf_apply, mulf_apply, shapeCast_1ab_ab_apply, row_apply, shapeCast_self]

end Cert.ModLinear.Body

end
-- ==== Proof.HostStyle.lean ====
/-
  The host operations in front of the kernel launch, read at an index.

  A style projection is a transpose of the projection matrix, a contraction of the style vectors against it over the
  256 style features, the bias broadcast over the batch, and a reshape that gives the result a unit middle axis:
  at `(b, 0, i)` it is `styleAt` at `(b, i)`. The weight is transposed and changes format, which on the extended
  reals is the transposition alone.
-/
import proofs.«127087_j41377714930225_2_alg».proof.Proof.Gen.KernelIdeal
import proofs.«127087_j41377714930225_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ModLinear.Host

open Cert.KernelIdeal Cert.KernelIdeal.Facts₀ Idealize.ShloMosaic Idealize.ShloMosaic.ValueIdx Cert.ModLinear

/-! ## The style contraction's operand indices -/

theorem lhs_0 (i : S2x512.Idx) (q : dot_S2x256_S256x512_S2x512_1_0_0_1_n_n.contr.Idx) :
    (dot_S2x256_S256x512_S2x512_1_0_0_1_n_n.lhsIdx i q 0).val = (i 0).val := by
  unfold DotDims.lhsIdx
  rw [dif_neg (show ¬(0 : Fin S2x256.rank) ∈ dot_S2x256_S256x512_S2x512_1_0_0_1_n_n.lhsBatch by decide), dif_pos (show (0 : Fin S2x256.rank) ∈ dot_S2x256_S256x512_S2x512_1_0_0_1_n_n.lhsNonContracting by decide)]
  rfl
theorem lhs_1 (i : S2x512.Idx) (q : dot_S2x256_S256x512_S2x512_1_0_0_1_n_n.contr.Idx) :
    (dot_S2x256_S256x512_S2x512_1_0_0_1_n_n.lhsIdx i q 1).val = (q ⟨0, by decide⟩).val :=
  dot_S2x256_S256x512_S2x512_1_0_0_1_n_n.lhsIdx_val_of_single rfl i q
theorem rhs_0 (i : S2x512.Idx) (q : dot_S2x256_S256x512_S2x512_1_0_0_1_n_n.contr.Idx) :
    (dot_S2x256_S256x512_S2x512_1_0_0_1_n_n.rhsIdx i q 0).val = (q ⟨0, by decide⟩).val :=
  dot_S2x256_S256x512_S2x512_1_0_0_1_n_n.rhsIdx_val_of_single rfl i q
theorem rhs_1 (i : S2x512.Idx) (q : dot_S2x256_S256x512_S2x512_1_0_0_1_n_n.contr.Idx) :
    (dot_S2x256_S256x512_S2x512_1_0_0_1_n_n.rhsIdx i q 1).val = (i 1).val := by
  unfold DotDims.rhsIdx
  rw [dif_neg (show ¬(1 : Fin S256x512.rank) ∈ dot_S2x256_S256x512_S2x512_1_0_0_1_n_n.rhsBatch by decide), dif_pos (show (1 : Fin S256x512.rank) ∈ dot_S2x256_S256x512_S2x512_1_0_0_1_n_n.rhsNonContracting by decide)]
  rfl

/-- The contraction at `(b, i)`: the sum over the 256 style features of row `b` of the left operand against
    column `i` of the right one. -/
theorem dot_apply (l : FVec Ideal S2x256 .f32) (rr : FVec Ideal S256x512 .f32) (b : Fin 2) (i : Fin 512) :
    Host.dotGeneral dot_S2x256_S256x512_S2x512_1_0_0_1_n_n none l rr (ix2 b i) = ∑ k : Fin 256, l (ix2 b k) * rr (ix2 k i) := by
  simp only [Host.dotGeneral]
  rw [Ideal.dotGeneral_apply, ← Equiv.sum_comp (ValueIdx.contrEquiv1 dot_S2x256_S256x512_S2x512_1_0_0_1_n_n 256 rfl rfl).symm]
  refine Finset.sum_congr rfl fun k _ => ?_
  have hk := ValueIdx.contrEquiv1_symm_val dot_S2x256_S256x512_S2x512_1_0_0_1_n_n 256 rfl rfl k
  have el : dot_S2x256_S256x512_S2x512_1_0_0_1_n_n.lhsIdx (ix2 b i) ((ValueIdx.contrEquiv1 dot_S2x256_S256x512_S2x512_1_0_0_1_n_n 256 rfl rfl).symm k) = ix2 b k := funext fun a => Fin.ext (by
    match a with
    | ⟨0, _⟩ => exact lhs_0 _ _
    | ⟨1, _⟩ => exact (lhs_1 _ _).trans hk)
  have er : dot_S2x256_S256x512_S2x512_1_0_0_1_n_n.rhsIdx (ix2 b i) ((ValueIdx.contrEquiv1 dot_S2x256_S256x512_S2x512_1_0_0_1_n_n 256 rfl rfl).symm k) = ix2 k i := funext fun a => Fin.ext (by
    match a with
    | ⟨0, _⟩ => exact (rhs_0 _ _).trans hk
    | ⟨1, _⟩ => exact rhs_1 _ _)
  rw [el, er]

/-! ## The bias broadcast over the batch, and the unit middle axis -/

/-- A `[512]` vector given a leading unit axis reads, at `(u, i)`, the vector at `i`. -/
theorem bias_row_apply (x : FVec Ideal S512 .f32) (u : Fin 1) (i : Fin 512) :
    broadcastInDim S1x512 ![1] bcast_S512_S1x512_1 x (ix2 u i) = x (ix1 i) :=
  broadcastInDim_apply _ bcast_S512_S1x512_1 x (ix2 u i) (ix1 i) (fun a => match a with
    | ⟨0, _⟩ => by show i.val = if (512 : Nat) = 1 then 0 else i.val; rw [if_neg (by decide)])

/-- A `[1, 512]` row broadcast over the two batches reads, at `(b, i)`, the row at `(0, i)`. -/
theorem bias_batch_apply (y : FVec Ideal S1x512 .f32) (b : Fin 2) (i : Fin 512) :
    broadcastInDim S2x512 ![0, 1] bcast_S1x512_S2x512_0_1 y (ix2 b i) = y (ix2 (0 : Fin 1) i) :=
  broadcastInDim_apply _ bcast_S1x512_S2x512_0_1 y (ix2 b i) (ix2 (0 : Fin 1) i) (fun a => match a with
    | ⟨0, _⟩ => by show 0 = if (1 : Nat) = 1 then 0 else b.val; rw [if_pos rfl]
    | ⟨1, _⟩ => by show i.val = if (512 : Nat) = 1 then 0 else i.val; rw [if_neg (by decide)])

/-- A `[2, 512]` array reshaped to `[2, 1, 512]` reads, at `(b, u, i)`, the array at `(b, i)`. -/
theorem unit_axis_apply (y : FVec Ideal S2x512 .f32) (b : Fin 2) (u : Fin 1) (i : Fin 512) :
    shapeCast S2x1x512 y shapeCasts_S2x512_S2x1x512 (ix3 b u i) = y (ix2 b i) :=
  shapeCast_apply y shapeCasts_S2x512_S2x1x512 _ _ (by
    have hu : u.val = 0 := by omega
    rw [Shape.rowMajor_val_three, Shape.rowMajor_val_two]
    show b.val * 512 + i.val = (b.val * 1 + u.val) * 512 + i.val
    omega)

/-- A STYLE PROJECTION as the host computes it in front of the launch, at `(b, u, i)`, is `styleAt` at `(b, i)`. -/
theorem style_apply (z : FVec Ideal S2x256 .f32) (w : FVec Ideal S512x256 .f32) (bias : FVec Ideal S512 .f32)
    (b : Fin 2) (u : Fin 1) (i : Fin 512) :
    shapeCast S2x1x512 (addf (Host.dotGeneral dot_S2x256_S256x512_S2x512_1_0_0_1_n_n none z (transpose S256x512 [1, 0] w transposes_S512x256_S256x512_1_0))
        (broadcastInDim S2x512 ![0, 1] bcast_S1x512_S2x512_0_1 (broadcastInDim S1x512 ![1] bcast_S512_S1x512_1 bias)))
      shapeCasts_S2x512_S2x1x512 (ix3 b u i) = styleAt z w bias b i := by
  rw [unit_axis_apply, addf_apply, dot_apply, bias_batch_apply, bias_row_apply]
  unfold styleAt
  refine congrArg₂ (· + ·) (Finset.sum_congr rfl fun k _ => ?_) rfl
  rw [transpose_ix2_apply]

/-- THE WEIGHT as the launch finds it, at `(i, o)`, is the weight at `(o, i)`. -/
theorem weight_apply (W : FVec Ideal S512x512 .f32) (i o : Fin 512) :
    truncf .bf16 (transpose S512x512 [1, 0] W transposes_S512x512_S512x512_1_0) bitsLt_bf16_f32 (ix2 i o) = W (ix2 o i) := by
  rw [truncf_apply, transpose_ix2_apply]

end Cert.ModLinear.Host

end
-- ==== Proof.Entry.lean ====
/-
  What the kernel launch finds in the three arrays the host operations wrote before it: the two style projections
  (with a unit middle axis) and the transposed weight, each read at an index as a function of the argument arrays.
-/
import proofs.«127087_j41377714930225_2_alg».proof.Proof.Gen.KernelIdeal.Frame
import proofs.«127087_j41377714930225_2_alg».proof.Proof.HostStyle
import Idealize.ShloMosaic.Lib.StableHlo.Run

noncomputable section

namespace Cert.ModLinear.Entry

open Cert.KernelIdeal Cert.KernelIdeal.Facts₀ Idealize.ShloMosaic Idealize.ShloMosaic.TcCoe Idealize.SL.Sem
open Idealize.ShloMosaic.ValueIdx Idealize.ShloMosaic.StableHlo Cert.ModLinear

variable (m : (ℓ : Loc nD τ sig) → Buf (Elt Ideal) ℓ)

/-! ## The argument arrays as launched, on core `c` -/

abbrev xArr (c : Dev nD) : FVec Ideal S2x131072x512 .f32 := m ((c : Thread nD τ).loc main_arg0)
abbrev zArr (c : Dev nD) : FVec Ideal S2x256 .f32 := m ((c : Thread nD τ).loc main_arg1)
abbrev wArr (c : Dev nD) : FVec Ideal S512x512 .f32 := m ((c : Thread nD τ).loc main_arg2)
abbrev waArr (c : Dev nD) : FVec Ideal S512x256 .f32 := m ((c : Thread nD τ).loc main_arg3)
abbrev baArr (c : Dev nD) : FVec Ideal S512 .f32 := m ((c : Thread nD τ).loc main_arg4)
abbrev wbArr (c : Dev nD) : FVec Ideal S512x256 .f32 := m ((c : Thread nD τ).loc main_arg5)
abbrev bbArr (c : Dev nD) : FVec Ideal S512 .f32 := m ((c : Thread nD τ).loc main_arg6)

/-! ## The host-written arrays -/

/-- The array of the kernel's second operand: the first style projection of the arguments. -/
theorem V_alpha (c : Dev nD) : (Gen.V m c main_v10 : FVec Ideal S2x1x512 .f32)
    = (shapeCast S2x1x512 (addf (F := Ideal) (Host.dotGeneral dot_S2x256_S256x512_S2x512_1_0_0_1_n_n none (zArr m c) (transpose S256x512 [1, 0] (waArr m c) transposes_S512x256_S256x512_1_0))
        (broadcastInDim S2x512 ![0, 1] bcast_S1x512_S2x512_0_1 (broadcastInDim S1x512 ![1] bcast_S512_S1x512_1 (baArr m c))))
      shapeCasts_S2x512_S2x1x512 : FVec Ideal S2x1x512 .f32) := by
  dsimp only [Gen.V, Gen.hostOps0]; after_results; rfl

/-- The array of the kernel's fourth operand: the second style projection of the arguments. -/
theorem V_beta (c : Dev nD) : (Gen.V m c main_v11 : FVec Ideal S2x1x512 .f32)
    = (shapeCast S2x1x512 (addf (F := Ideal) (Host.dotGeneral dot_S2x256_S256x512_S2x512_1_0_0_1_n_n none (zArr m c) (transpose S256x512 [1, 0] (wbArr m c) transposes_S512x256_S256x512_1_0))
        (broadcastInDim S2x512 ![0, 1] bcast_S1x512_S2x512_0_1 (broadcastInDim S1x512 ![1] bcast_S512_S1x512_1 (bbArr m c))))
      shapeCasts_S2x512_S2x1x512 : FVec Ideal S2x1x512 .f32) := by
  dsimp only [Gen.V, Gen.hostOps0]; after_results; rfl

/-- The array of the kernel's third operand: the weight transposed. -/
theorem V_weight (c : Dev nD) : (Gen.V m c main_v13 : FVec Ideal S512x512 .bf16)
    = (truncf (F := Ideal) .bf16 (transpose S512x512 [1, 0] (wArr m c) transposes_S512x512_S512x512_1_0) bitsLt_bf16_f32 : FVec Ideal S512x512 .bf16) := by
  dsimp only [Gen.V, Gen.hostOps0]; after_results

/-- alpha as the launch finds it, at `(b, u, i)`. -/
theorem alpha_apply (c : Dev nD) (b : Fin 2) (u : Fin 1) (i : Fin 512) :
    (Gen.V m c main_v10 : FVec Ideal S2x1x512 .f32) (ix3 b u i) = styleAt (zArr m c) (waArr m c) (baArr m c) b i := by
  rw [V_alpha]; exact Host.style_apply _ _ _ b u i

/-- beta as the launch finds it, at `(b, u, o)`. -/
theorem beta_apply (c : Dev nD) (b : Fin 2) (u : Fin 1) (o : Fin 512) :
    (Gen.V m c main_v11 : FVec Ideal S2x1x512 .f32) (ix3 b u o) = styleAt (zArr m c) (wbArr m c) (bbArr m c) b o := by
  rw [V_beta]; exact Host.style_apply _ _ _ b u o

/-- The transposed weight as the launch finds it, at `(i, o)`. -/
theorem weight_apply (c : Dev nD) (i o : Fin 512) :
    (Gen.V m c main_v13 : FVec Ideal S512x512 .bf16) (ix2 i o) = wArr m c (ix2 o i) := by
  rw [V_weight]; exact Host.weight_apply _ i o

end Cert.ModLinear.Entry

end
-- ==== Proof.KernelValue.lean ====
/-
  The kernel's result array after the run is the modulated linear layer of `Spec`.

  The grid has 2 × 64 points; point `(b, q)` works on batch `b` and rows `2048 q … 2048 q + 2047`. There the body
  reads the `[1, 2048, 512]` block of `x` at block index `(b, q, 0)`, row `b` of alpha and of beta, and the whole
  transposed weight, and writes the `[1, 2048, 512]` block of the result at block index `(b, q, 0)`. An element
  `(0, r, o)` of that block sits in the array at `(b, 2048 q + r, o)`, and the body's value there is the layer at
  that index. The 128 output blocks tile the array, so the array ends holding the layer everywhere.
-/
import proofs.«127087_j41377714930225_2_alg».proof.Proof.Gen.KernelIdeal.Value
import proofs.«127087_j41377714930225_2_alg».proof.Proof.Spec
import proofs.«127087_j41377714930225_2_alg».proof.Proof.Body
import proofs.«127087_j41377714930225_2_alg».proof.Proof.Entry

noncomputable section

open scoped BigOperators

namespace Cert.ModLinear.Kernel

open Cert.KernelIdeal Cert.KernelIdeal.Gen Idealize.ShloMosaic Idealize.ShloMosaic.TcCoe Idealize.SL.Sem
open Idealize.ShloMosaic.ValueIdx Cert.ModLinear Cert.ModLinear.Entry
open Idealize.ShloMosaic.Pipeline (Dat)

variable (m : (ℓ : Loc nD τ sig) → Buf (Elt Ideal) ℓ) (ρ : Dev nD → PrngReg)

/-! ## The result as a function of the argument arrays -/

/-- The layer of the arguments as launched, on core `c`. -/
abbrev out (c : Dev nD) : FVec Ideal S2x131072x512 .f32 :=
  result (xArr m c) (zArr m c) (wArr m c) (waArr m c) (baArr m c) (wbArr m c) (bbArr m c)

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- At every grid point: the block of `x` moves with the output block; alpha's and beta's block follow the batch
    coordinate alone; the weight's block is the whole array; the output's block index is `(b, q, 0)` with
    `b < 2`, `q < 64`. Decided over the 128 points. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_4.index t (0 : Fin 3) ∧ win0_3.index t (1 : Fin 3) = 0 ∧ win0_3.index t (2 : Fin 3) = 0
    ∧ win0_4.index t (0 : Fin 3) < 2 ∧ win0_4.index t (1 : Fin 3) < 64 ∧ win0_4.index t (2 : Fin 3) = 0 :=
  (by decide +kernel : ∀ t : Fin grid0.N, _)

/-- Every block index `(b, q, 0)` is some point's. -/
theorem idx_onto : ∀ (b : Fin 2) (q : Fin 64), ∃ t : Fin cfg0.N, win0_4.index t = ![b.val, q.val, 0] :=
  (by decide +kernel : ∀ (b : Fin 2) (q : Fin 64), ∃ t : Fin grid0.N, win0_4.index t = ![b.val, q.val, 0])

/-! ## The input blocks at a point, as the argument arrays -/

/-- Row `r` of the block of `x` at a point whose block index is `(b, q, 0)` is row `n = 2048 q + r` of batch `b`. -/
theorem blk_x (c : Dev nD) (t : Fin cfg0.N) (r : Fin 2048) (i : Fin 512) (b : Fin 2) (n : Fin 131072)
    (h0 : win0_0.index t (0 : Fin 3) = b.val) (h1 : win0_0.index t (1 : Fin 3) * 2048 + r.val = n.val)
    (h2 : win0_0.index t (2 : Fin 3) = 0) :
    (iblk m c 0 t : Vec Ideal S1x2048x512 .f32) (ix3 (0 : Fin 1) r i) = xArr m c (ix3 b n i) := by
  show (V m c main_arg0 : FVec Ideal S2x131072x512 .f32) (((cfg0.win 0).blk t).view.emb (ix3 (0 : Fin 1) r i)) = _
  rw [V_main_arg0]
  refine congrArg (xArr m c) (ix3_of _ b n i ?_ ?_ ?_)
  · show win0_0.index t (0 : Fin 3) * 1 + 1 * 0 = b.val; omega
  · show win0_0.index t (1 : Fin 3) * 2048 + 1 * r.val = n.val; omega
  · show win0_0.index t (2 : Fin 3) * 512 + 1 * i.val = i.val; omega

/-- The block of alpha at a point of batch `b` is row `b` of the first style projection. -/
theorem blk_alpha (c : Dev nD) (t : Fin cfg0.N) (i : Fin 512) (b : Fin 2)
    (h0 : win0_1.index t (0 : Fin 3) = b.val) (h1 : win0_1.index t (1 : Fin 3) = 0) (h2 : win0_1.index t (2 : Fin 3) = 0) :
    (iblk m c 1 t : Vec Ideal S1x1x512 .f32) (ix3 (0 : Fin 1) (0 : Fin 1) i) = styleAt (zArr m c) (waArr m c) (baArr m c) b i := by
  show (V m c main_v10 : FVec Ideal S2x1x512 .f32) (((cfg0.win 1).blk t).view.emb (ix3 (0 : Fin 1) (0 : Fin 1) i)) = _
  refine (congrArg (V m c main_v10 : FVec Ideal S2x1x512 .f32) (ix3_of _ b (0 : Fin 1) i ?_ ?_ ?_)).trans (Entry.alpha_apply m c b 0 i)
  · show win0_1.index t (0 : Fin 3) * 1 + 1 * 0 = b.val; omega
  · show win0_1.index t (1 : Fin 3) * 1 + 1 * 0 = 0; omega
  · show win0_1.index t (2 : Fin 3) * 512 + 1 * i.val = i.val; omega

/-- The block of beta at a point of batch `b` is row `b` of the second style projection. -/
theorem blk_beta (c : Dev nD) (t : Fin cfg0.N) (o : Fin 512) (b : Fin 2)
    (h0 : win0_3.index t (0 : Fin 3) = b.val) (h1 : win0_3.index t (1 : Fin 3) = 0) (h2 : win0_3.index t (2 : Fin 3) = 0) :
    (iblk m c 3 t : Vec Ideal S1x1x512 .f32) (ix3 (0 : Fin 1) (0 : Fin 1) o) = styleAt (zArr m c) (wbArr m c) (bbArr m c) b o := by
  show (V m c main_v11 : FVec Ideal S2x1x512 .f32) (((cfg0.win 3).blk t).view.emb (ix3 (0 : Fin 1) (0 : Fin 1) o)) = _
  refine (congrArg (V m c main_v11 : FVec Ideal S2x1x512 .f32) (ix3_of _ b (0 : Fin 1) o ?_ ?_ ?_)).trans (Entry.beta_apply m c b 0 o)
  · show win0_3.index t (0 : Fin 3) * 1 + 1 * 0 = b.val; omega
  · show win0_3.index t (1 : Fin 3) * 1 + 1 * 0 = 0; omega
  · show win0_3.index t (2 : Fin 3) * 512 + 1 * o.val = o.val; omega

/-- The weight's block at every point is the whole transposed weight. -/
theorem blk_weight (c : Dev nD) (t : Fin cfg0.N) (i o : Fin 512)
    (h0 : win0_2.index t (0 : Fin 2) = 0) (h1 : win0_2.index t (1 : Fin 2) = 0) :
    (iblk m c 2 t : Vec Ideal S512x512 .bf16) (ix2 i o) = wArr m c (ix2 o i) := by
  show (V m c main_v13 : FVec Ideal S512x512 .bf16) (((cfg0.win 2).blk t).view.emb (ix2 i o)) = _
  refine (congrArg (V m c main_v13 : FVec Ideal S512x512 .bf16) (ix2_of _ i o ?_ ?_)).trans (Entry.weight_apply m c i o)
  · show win0_2.index t (0 : Fin 2) * 512 + 1 * i.val = i.val; omega
  · show win0_2.index t (1 : Fin 2) * 512 + 1 * o.val = o.val; omega

/-! ## One element of one block -/

/-- The body's value at element `y` of its block, once the four loaded blocks are known to be the rows of the
    arrays that the layer at `(b, n, o)` reads, is the layer at `(b, n, o)`. -/
theorem point_value (xb : Vec Ideal S1x2048x512 .f32) (al bt : Vec Ideal S1x1x512 .f32) (wT : Vec Ideal S512x512 .bf16)
    (x : S2x131072x512.Idx → EReal) (W : S512x512.Idx → EReal) (A B : Fin 2 → Fin 512 → EReal)
    (y : S1x2048x512.Idx) (r : Fin 2048) (o : Fin 512) (b : Fin 2) (n : Fin 131072)
    (hr : (y 1).val = r.val) (ho : (y 2).val = o.val)
    (hx : ∀ i : Fin 512, xb (ix3 (0 : Fin 1) r i) = x (ix3 b n i))
    (hal : ∀ i : Fin 512, al (ix3 (0 : Fin 1) (0 : Fin 1) i) = A b i)
    (hbt : bt (ix3 (0 : Fin 1) (0 : Fin 1) o) = B b o)
    (hw : ∀ i : Fin 512, wT (ix2 i o) = W (ix2 o i)) :
    k0_pay1 (F := Ideal) xb al bt wT y = modAt x W A B b n o := by
  have hy : y = ix3 (0 : Fin 1) r o :=
    ix3_of y (0 : Fin 1) r o (by show (y 0).val = 0; have h : (y 0).val < 1 := (y 0).isLt; omega) hr ho
  rw [hy, Body.pay_apply]
  unfold modAt
  refine congrArg₂ (· + ·) (Finset.sum_congr rfl fun i _ => ?_) hbt
  rw [hx, hal, hw]

/-! ## From the blocks to the array -/

/-- WHAT POINT `t` WRITES BACK is block `t` of the layer of the arguments. -/
theorem flushed_eq (c : Dev nD) (t : Fin cfg0.N) :
    (dats m 0 c).flushed 4 t = ((cfg0.win 4).blk t).view.read (Elt Ideal) (out m c) := by
  rw [Value.flushed4]
  unfold out0_4
  rw [View.canon_unit_zero hz3]
  simp only [View.ld_unit_zero (S := S1x2048x512) hz3, View.ld_unit_zero (S := S1x1x512) hz3, View.ld_unit_zero (S := S512x512) hz2]
  obtain ⟨e00, e01, e02, e10, e11, e12, e20, e21, e30, e31, e32, l0, l1, e42⟩ := idx_facts t
  funext y
  have hy0 : (y 0).val < 1 := (y 0).isLt
  have hy1 : (y 1).val < 2048 := (y 1).isLt
  have hy2 : (y 2).val < 512 := (y 2).isLt
  have hn : win0_4.index t (1 : Fin 3) * 2048 + (y 1).val < 131072 := by omega
  have hemb : ((cfg0.win 4).blk t).view.emb y
      = ix3 (⟨win0_4.index t (0 : Fin 3), l0⟩ : Fin 2) (⟨win0_4.index t (1 : Fin 3) * 2048 + (y 1).val, hn⟩ : Fin 131072) (⟨(y 2).val, hy2⟩ : Fin 512) :=
    ix3_of _ _ _ _
      (by show win0_4.index t (0 : Fin 3) * 1 + 1 * (y 0).val = win0_4.index t (0 : Fin 3); omega)
      (by show win0_4.index t (1 : Fin 3) * 2048 + 1 * (y 1).val = win0_4.index t (1 : Fin 3) * 2048 + (y 1).val; omega)
      (by show win0_4.index t (2 : Fin 3) * 512 + 1 * (y 2).val = (y 2).val; omega)
  show k0_pay1 (iblk m c 0 t) (iblk m c 1 t) (iblk m c 3 t) (iblk m c 2 t) y = out m c (((cfg0.win 4).blk t).view.emb y)
  rw [hemb]
  refine (point_value (iblk m c 0 t) (iblk m c 1 t) (iblk m c 3 t) (iblk m c 2 t)
    (xArr m c) (wArr m c) (styleAt (zArr m c) (waArr m c) (baArr m c)) (styleAt (zArr m c) (wbArr m c) (bbArr m c))
    y ⟨(y 1).val, hy1⟩ ⟨(y 2).val, hy2⟩ ⟨win0_4.index t (0 : Fin 3), l0⟩ ⟨win0_4.index t (1 : Fin 3) * 2048 + (y 1).val, hn⟩ rfl rfl
    (fun i => blk_x m c t ⟨(y 1).val, hy1⟩ i ⟨win0_4.index t (0 : Fin 3), l0⟩ ⟨win0_4.index t (1 : Fin 3) * 2048 + (y 1).val, hn⟩ e00
      (by show win0_0.index t (1 : Fin 3) * 2048 + (y 1).val = win0_4.index t (1 : Fin 3) * 2048 + (y 1).val; rw [e01]) e02)
    (fun i => blk_alpha m c t i ⟨win0_4.index t (0 : Fin 3), l0⟩ e10 e11 e12)
    (blk_beta m c t ⟨(y 2).val, hy2⟩ ⟨win0_4.index t (0 : Fin 3), l0⟩ e30 e31 e32)
    (fun i => blk_weight m c t i ⟨(y 2).val, hy2⟩ e20 e21)).trans ?_
  exact (result_apply _ _ _ _ _ _ _ _ _ _).symm

/-- An index of the array is in point `t`'s block iff each coordinate is in the block's range on its axis. -/
theorem mem_blk (t : Fin cfg0.N) (i : S2x131072x512.Idx) :
    i ∈ ((cfg0.win 4).blk t).view.set ↔ ∀ a : Fin 3, win0_4.index t a * S1x2048x512.size a ≤ (i a).val ∧ (i a).val < win0_4.index t a * S1x2048x512.size a + S1x2048x512.size a := by
  show i ∈ ((View.whole main_v14).slice (win0_4.rect t)).set ↔ _
  rw [View.set_slice_whole, Rect.mem_set_unit]
  exact Iff.rfl

/-- THE BLOCKS TILE THE ARRAY: index `(b, n, o)` is in the block of the point with block index `(b, n / 2048, 0)`. -/
theorem cover (i : S2x131072x512.Idx) :
    ∃ t : Fin cfg0.N, (cfg0.win 4).flush t = true ∧ i ∈ ((cfg0.win 4).blk t).view.set := by
  have hi0 : (i 0).val < 2 := (i 0).isLt
  have hi1 : (i 1).val < 131072 := (i 1).isLt
  have hi2 : (i 2).val < 512 := (i 2).isLt
  obtain ⟨t, ht⟩ := idx_onto ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 512 ≤ (i 2).val ∧ (i 2).val < win0_4.index t (2 : Fin 3) * 512 + 512; omega

/-- THE ARRAY after the run is the layer of the arguments. -/
theorem final (c : Dev nD) : (dats m 0 c).arrAt 4 cfg0.N = out m c :=
  (dats m 0 c).arrAt_eq_of_cover 4 (out m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v14) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.ModLinear.Kernel

end
-- ==== Proof.lean ====
/-
  A modulated linear layer: per-sample scaling of the input channels by a style projection, a dense matrix product,
  and a per-sample output bias from a second style projection,
      out[b, n, o] = (Σ_i (x[b, n, i] · alpha[b, i]) · W[o, i]) + beta[b, o],
      alpha = z · waᵀ + ba,   beta = z · wbᵀ + bb.
  The kernel computes alpha, beta and the transposed weight on the host and then, for each batch and each tile of
  2048 rows, multiplies the tile by alpha's row, takes the matrix product with the transposed weight and adds
  beta's row; the reference multiplies the whole input by alpha, contracts against the weight and adds beta.
  On the extended reals both are the same sums in the same grouping (`Spec`): the reference by reading its
  operations at an index (`RefValue`), the kernel by reading the body's store at an element (`Body`), the
  host-written operands at an index (`HostStyle`, `Entry`) and the 128 blocks tiling the array (`KernelValue`).
  No step needs the inputs finite. The kernel's idealization rewrites nothing, so `preserves` is trivial.
-/
import proofs.«127087_j41377714930225_2_alg».proof.Defs
import proofs.«127087_j41377714930225_2_alg».proof.Proof.Gen.Kernel
import proofs.«127087_j41377714930225_2_alg».proof.Proof.Gen.Kernel.Skeleton
import proofs.«127087_j41377714930225_2_alg».proof.Proof.Gen.Kernel.Launch
import proofs.«127087_j41377714930225_2_alg».proof.Proof.Gen.Kernel.Points
import proofs.«127087_j41377714930225_2_alg».proof.Proof.Gen.Kernel.Frame
import proofs.«127087_j41377714930225_2_alg».proof.Proof.Gen.KernelIdeal
import proofs.«127087_j41377714930225_2_alg».proof.Proof.Gen.KernelIdeal.Skeleton
import proofs.«127087_j41377714930225_2_alg».proof.Proof.Gen.KernelIdeal.Launch
import proofs.«127087_j41377714930225_2_alg».proof.Proof.Gen.KernelIdeal.Points
import proofs.«127087_j41377714930225_2_alg».proof.Proof.Gen.KernelIdeal.Frame
import proofs.«127087_j41377714930225_2_alg».proof.Proof.Gen.ReferenceIdeal
import proofs.«127087_j41377714930225_2_alg».proof.Proof.Gen.Pre_finite_inputs
import proofs.«127087_j41377714930225_2_alg».proof.Proof.Gen.KernelIdeal.Value
import proofs.«127087_j41377714930225_2_alg».proof.Proof.Gen.ReferenceIdeal.Run
import proofs.«127087_j41377714930225_2_alg».proof.Proof.Gen.ReferenceIdeal.Read
import proofs.«127087_j41377714930225_2_alg».proof.Proof.Spec
import proofs.«127087_j41377714930225_2_alg».proof.Proof.RefValue
import proofs.«127087_j41377714930225_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the layer of their arguments in the result array; the arguments agree. -/
theorem algebraic : Cert.algebraic_KernelIdeal_ReferenceIdeal := by
  intro m ρ m' ρ' _ hagree
  refine ⟨fun c => Cert.ModLinear.Kernel.out m c, Cert.ModLinear.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v16_eq, Cert.ModLinear.Ref.val_eq_result, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
